-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x128 .f32) (main_arg3 : FVec F S128 .f32) (main_arg4 : FVec F S128x64 .f32) (main_arg5 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S5000x256 : Shape := ⟨2, ![5000, 256]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 89
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .f32⟩
  | .hbm, ⟨79, _⟩ => ⟨S850000x1, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000, .i32⟩
  | .hbm, ⟨70, _⟩ => ⟨S850000, .i32⟩
  | .hbm, ⟨71, _⟩ => ⟨S850000, .i32⟩
  | .hbm, ⟨72, _⟩ => ⟨S_, .f32⟩
  | .hbm, ⟨73, _⟩ => ⟨S850000, .f32⟩
  | .hbm, ⟨74, _⟩ => ⟨S_, .f32⟩
  | .hbm, ⟨75, _⟩ => ⟨S50000, .f32⟩
  | .hbm, ⟨76, _⟩ => ⟨S850000x1, .i32⟩
  | .hbm, ⟨77, _⟩ => ⟨S50000, .f32⟩
  | .hbm, ⟨78, _⟩ => ⟨S_, .f32⟩
  | .hbm, ⟨79, _⟩ => ⟨S50000, .f32⟩
  | .hbm, ⟨80, _⟩ => ⟨S50000, .i1⟩
  | .hbm, ⟨81, _⟩ => ⟨S50000, .f32⟩
  | .hbm, ⟨82, _⟩ => ⟨S_, .f32⟩
  | .hbm, ⟨83, _⟩ => ⟨S_, .f32⟩
  | .hbm, ⟨84, _⟩ => ⟨S50000, .f32⟩
  | .hbm, ⟨85, _⟩ => ⟨S50000, .f32⟩
  | .hbm, ⟨86, _⟩ => ⟨S_, .i32⟩
  | .hbm, ⟨87, _⟩ => ⟨S850000, .i32⟩
  | .hbm, ⟨88, _⟩ => ⟨S850000, .i1⟩
  | .hbm, ⟨89, _⟩ => ⟨S_, .i32⟩
  | .hbm, ⟨90, _⟩ => ⟨S850000, .i32⟩
  | .hbm, ⟨91, _⟩ => ⟨S850000, .i32⟩
  | .hbm, ⟨92, _⟩ => ⟨S850000, .i32⟩
  | .hbm, ⟨93, _⟩ => ⟨S850000x1, .i32⟩
  | .hbm, ⟨94, _⟩ => ⟨S850000, .f32⟩
  | .hbm, ⟨95, _⟩ => ⟨S_, .i32⟩
  | .hbm, ⟨96, _⟩ => ⟨S850000, .i32⟩
  | .hbm, ⟨97, _⟩ => ⟨S850000, .i1⟩
  | .hbm, ⟨98, _⟩ => ⟨S_, .i32⟩
  | .hbm, ⟨99, _⟩ => ⟨S850000, .i32⟩
  | .hbm, ⟨100, _⟩ => ⟨S850000, .i32⟩
  | .hbm, ⟨101, _⟩ => ⟨S850000, .i32⟩
  | .hbm, ⟨102, _⟩ => ⟨S850000x1, .i32⟩
  | .hbm, ⟨103, _⟩ => ⟨S850000, .f32⟩
  | .hbm, ⟨104, _⟩ => ⟨S850000, .f32⟩
  | .hbm, ⟨105, _⟩ => ⟨S50000x64, .f32⟩
  | .hbm, ⟨106, _⟩ => ⟨S_, .i32⟩
  | .hbm, ⟨107, _⟩ => ⟨S850000, .i32⟩
  | .hbm, ⟨108, _⟩ => ⟨S850000, .i1⟩
  | .hbm, ⟨109, _⟩ => ⟨S_, .i32⟩
  | .hbm, ⟨110, _⟩ => ⟨S850000, .i32⟩
  | .hbm, ⟨111, _⟩ => ⟨S850000, .i32⟩
  | .hbm, ⟨112, _⟩ => ⟨S850000, .i32⟩
  | .hbm, ⟨113, _⟩ => ⟨S850000x1, .i32⟩
  | .hbm, ⟨114, _⟩ => ⟨S850000x64, .f32⟩
  | .hbm, ⟨115, _⟩ => ⟨S850000x1, .f32⟩
  | .hbm, ⟨116, _⟩ => ⟨S850000x64, .f32⟩
  | .hbm, ⟨117, _⟩ => ⟨S850000x64, .f32⟩
  | .hbm, ⟨118, _⟩ => ⟨S_, .f32⟩
  | .hbm, ⟨119, _⟩ => ⟨S50000x64, .f32⟩
  | .hbm, ⟨120, _⟩ => ⟨S850000x1, .i32⟩
  | .hbm, ⟨121, _⟩ => ⟨S50000x64, .f32⟩
  | .hbm, ⟨122, _⟩ => ⟨S1x64, .f32⟩
  | .hbm, ⟨123, _⟩ => ⟨S50000x64, .f32⟩
  | .hbm, ⟨124, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel's run with its RESULT named. The program is two matrix-product regions among stretches of host
  operations; its buffers at every boundary are a fold from the launch memory (the generated `Gen.W0 … Gen.W8`):
  a stretch applies its operations, a region leaves its output array at what its blocks' write-backs leave and every
  other buffer as it was. Every weakly fair execution terminates with EVERY unscoped buffer at the last boundary's
  contents `Gen.W8`; the generated frame keeps of that only the argument arrays, here the result array
  `main_v64` is kept as well.
-/
import proofs.«149042_j670014898796_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, with the
    result array at the last boundary's contents and the argument arrays as launched. -/
theorem run_result : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.Layers.lean ====
/-
  The host side of a two-layer graph convolution as functions of arrays, generic in the float instance.
  From the edge list `e` (row 0 the sources, row 1 the destinations of 800000 edges): every node gets a self loop, so the
  endpoint lists are the edge rows followed by 0 … 49999 (`edgeSrc`, `edgeDst`); a node's degree is the number of
  destinations equal to it, its weight the inverse square root of its degree where the degree is positive and 0
  elsewhere (`invSqrtDeg`); an edge's weight is the product of its endpoints' weights (`edgeNorm`). An index array is
  used as jnp does: a negative entry is first moved up by the axis extent (`wrapIdx`).
  One layer takes the transformed features `h = x · W`, gathers the row of each edge's source, scales it by the edge's
  weight, adds it into the row of the edge's destination, and adds the bias (`aggregate2`); the first layer ends with a
  maximum against 0 (`aggregate1`).
-/
import proofs.«149042_j670014898796_1_alg».proof.Proof.Gen.KernelIdeal

noncomputable section

namespace Cert.KernelIdeal.Layers

open Idealize.ShloMosaic Idealize.SL.Sem
open Cert.KernelIdeal Cert.KernelIdeal.Gen

variable {F : FTy → Type} [FloatOps F]

/-- The edges' sources followed by every node (the self loops). -/
def edgeSrc (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The edges' destinations followed by every node (the self loops). -/
def edgeDst (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- An index array as a gather's start indices: a negative entry moved up by 50000, each entry its own row. -/
def wrapIdx (v : (⟨S850000, .i32⟩ : BufTy).Contents (Elt F)) : (⟨S850000x1, .i32⟩ : BufTy).Contents (Elt F) :=
  broadcastInDim S850000x1 ![0] bcast_S850000_S850000x1_0 (select (cmpi .slt v (broadcastInDim S850000 ![] bcast_S_S850000 (constantI S_ 32 0#32))) (addi v (broadcastInDim S850000 ![] bcast_S_S850000 (constantI S_ 32 50000#32))) v)

/-- Each node's degree: the ones of all the destinations added up at their nodes. -/
def degree (d : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 d) (broadcastInDim S850000 ![] bcast_S_S850000 (constant S_ .f32 0x3F800000#32))

/-- Each node's weight: the inverse square root of its degree where that is positive, 0 elsewhere. -/
def invSqrtDeg (d : (⟨S850000, .i32⟩ : BufTy).Contents (Elt F)) : (⟨S50000, .f32⟩ : BufTy).Contents (Elt F) :=
  select (cmpf (F := F) .ogt (degree d) (broadcastInDim S50000 ![] bcast_S_S50000 (constant S_ .f32 0x00000000#32))) (Host.rsqrt (degree d)) (broadcastInDim S50000 ![] bcast_S_S50000 (id (constant S_ .f32 0x00000000#32)))

/-- Each edge's weight: the product of its source's and its destination's weights. -/
def edgeNorm (s d : (⟨S850000, .i32⟩ : BufTy).Contents (Elt F)) : (⟨S850000, .f32⟩ : BufTy).Contents (Elt F) :=
  mulf (Host.gather gather_S50000_S850000x1_S850000_n_0_n_n_0_1_1 (invSqrtDeg d) (wrapIdx s)) (Host.gather gather_S50000_S850000x1_S850000_n_0_n_n_0_1_1 (invSqrtDeg d) (wrapIdx d))

/-- The first layer after its transform: weighted rows of the sources added at the destinations, the bias, then the
    maximum against 0. -/
def aggregate1 (h : (⟨S50000x128, .f32⟩ : BufTy).Contents (Elt F)) (s d : (⟨S850000, .i32⟩ : BufTy).Contents (Elt F))
    (nrm : (⟨S850000, .f32⟩ : BufTy).Contents (Elt F)) (b : (⟨S128, .f32⟩ : BufTy).Contents (Elt F)) :
    (⟨S50000x128, .f32⟩ : BufTy).Contents (Elt F) :=
  maximumf (addf (Host.scatterAdd scatter_S50000x128_S850000x1_S850000x128_1_0_0_1 (broadcastInDim S50000x128 ![] bcast_S_S50000x128 (constant S_ .f32 0x00000000#32)) (broadcastInDim S850000x1 ![0] bcast_S850000_S850000x1_0 d) (mulf (Host.gather gather_S50000x128_S850000x1_S850000x128_1_0_n_n_0_1_1128 h (wrapIdx s)) (broadcastInDim S850000x128 ![0, 1] bcast_S850000x1_S850000x128_0_1 (broadcastInDim S850000x1 ![0] bcast_S850000_S850000x1_0 nrm)))) (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- The second layer after its transform: weighted rows of the sources added at the destinations, then the bias. -/
def aggregate2 (h : (⟨S50000x64, .f32⟩ : BufTy).Contents (Elt F)) (s d : (⟨S850000, .i32⟩ : BufTy).Contents (Elt F))
    (nrm : (⟨S850000, .f32⟩ : BufTy).Contents (Elt F)) (b : (⟨S64, .f32⟩ : BufTy).Contents (Elt F)) :
    (⟨S50000x64, .f32⟩ : BufTy).Contents (Elt F) :=
  addf (Host.scatterAdd scatter_S50000x64_S850000x1_S850000x64_1_0_0_1 (broadcastInDim S50000x64 ![] bcast_S_S50000x64 (constant S_ .f32 0x00000000#32)) (broadcastInDim S850000x1 ![0] bcast_S850000_S850000x1_0 d) (mulf (Host.gather gather_S50000x64_S850000x1_S850000x64_1_0_n_n_0_1_164 h (wrapIdx s)) (broadcastInDim S850000x64 ![0, 1] bcast_S850000x1_S850000x64_0_1 (broadcastInDim S850000x1 ![0] bcast_S850000_S850000x1_0 nrm)))) (broadcastInDim S50000x64 ![0, 1] bcast_S1x64_S50000x64_0_1 (broadcastInDim S1x64 ![1] bcast_S64_S1x64_1 b))

/-- The whole network: both layers over the same endpoint lists and edge weights, each layer's transform the plain
    matrix product of its input by its weight matrix. -/
def gcn (x : (⟨S50000x256, .f32⟩ : BufTy).Contents (Elt F)) (e : (⟨S2x800000, .i32⟩ : BufTy).Contents (Elt F))
    (w1 : (⟨S256x128, .f32⟩ : BufTy).Contents (Elt F)) (b1 : (⟨S128, .f32⟩ : BufTy).Contents (Elt F))
    (w2 : (⟨S128x64, .f32⟩ : BufTy).Contents (Elt F)) (b2 : (⟨S64, .f32⟩ : BufTy).Contents (Elt F)) :
    (⟨S50000x64, .f32⟩ : BufTy).Contents (Elt F) :=
  aggregate2
    (FloatOps.dotGeneral (F := F) (DotDims.plain 50000 128 64) none .single
      (aggregate1 (FloatOps.dotGeneral (F := F) (DotDims.plain 50000 256 128) none .single x w1)
        (edgeSrc (F := F) e) (edgeDst (F := F) e) (edgeNorm (edgeSrc (F := F) e) (edgeDst (F := F) e)) b1) w2)
    (edgeSrc (F := F) e) (edgeDst (F := F) e) (edgeNorm (edgeSrc (F := F) e) (edgeDst (F := F) e)) b2

end Cert.KernelIdeal.Layers

end
-- ==== Proof.LibPlainDot.lean ====
/-
  A plain matrix product read at an index. For the dimension numbers that contract the second axis of an `M × K`
  array with the first axis of a `K × N` array and keep the other two axes in order, both the `dot_general`
  of the two arrays and their `matmul` into a zero accumulator are, at the extended reals, the textbook sum
  `∑ k, X (r, k) · W (k, c)`: the contraction shape has one axis of extent `K`, its indices are re-indexed by `Fin K`,
  and each operand index is read coordinate by coordinate.
-/
import Idealize.ShloMosaic.PureOps.Ideal
import Idealize.ShloMosaic.PureOps.Ideal.Laws
import Idealize.ShloMosaic.Lib.ValueIdx

noncomputable section

open scoped BigOperators

namespace Cert.Proof.PlainDot

open Idealize.ShloMosaic Idealize.ShloMosaic.ValueIdx

variable {M K N : Nat}

/-- The left operand's row coordinate is the output's row coordinate: axis 0 of the left is its one free axis. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position: axis 1 of the left is the contracted one. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction position: axis 0 of the right is the contracted one. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the output's column coordinate: axis 1 of the right is its one free axis. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At contraction position `k` (put on the contraction shape's one axis) the left operand is read at `(r, k)`. -/
theorem lhsIdx_plain (i : (⟨2, ![M, N]⟩ : Shape).Idx) (k : Fin K) :
    (DotDims.plain M K N).lhsIdx i ((contrEquiv1 (DotDims.plain M K N) K rfl rfl).symm k) = ix2 (i 0) k := by
  have hk := contrEquiv1_symm_val (DotDims.plain M K N) K rfl rfl k
  funext a
  refine Fin.ext ?_
  match a with
  | ⟨0, _⟩ => exact lhs_row i _
  | ⟨1, _⟩ => exact (lhs_col i _).trans hk

/-- At contraction position `k` the right operand is read at `(k, c)`. -/
theorem rhsIdx_plain (i : (⟨2, ![M, N]⟩ : Shape).Idx) (k : Fin K) :
    (DotDims.plain M K N).rhsIdx i ((contrEquiv1 (DotDims.plain M K N) K rfl rfl).symm k) = ix2 k (i 1) := by
  have hk := contrEquiv1_symm_val (DotDims.plain M K N) K rfl rfl k
  funext a
  refine Fin.ext ?_
  match a with
  | ⟨0, _⟩ => exact (rhs_row i _).trans hk
  | ⟨1, _⟩ => exact rhs_col i _

/-- The sum over the contraction shape's indices of the operands' products is the sum over `k : Fin K` of
    `X (r, k) · W (k, c)`. -/
theorem sum_contr_plain {φ₁ φ₂ : FTy} (X : FVec Ideal ⟨2, ![M, K]⟩ φ₁) (W : FVec Ideal ⟨2, ![K, N]⟩ φ₂)
    (i : (⟨2, ![M, N]⟩ : Shape).Idx) :
    (∑ q : (DotDims.plain M K N).contr.Idx, X ((DotDims.plain M K N).lhsIdx i q) * W ((DotDims.plain M K N).rhsIdx i q))
      = ∑ k : Fin K, X (ix2 (i 0) k) * W (ix2 k (i 1)) := by
  rw [← Equiv.sum_comp (contrEquiv1 (DotDims.plain M K N) K rfl rfl).symm]
  refine Finset.sum_congr rfl fun k _ => ?_
  exact congrArg₂ (· * ·) (congrArg X (lhsIdx_plain i k)) (congrArg W (rhsIdx_plain i k))

/-- The `dot_general` with the plain dimension numbers, at the extended reals, is the matrix product:
    entry `(r, c)` is `∑ k, X (r, k) · W (k, c)`, whatever the precision and the schedule key. -/
theorem dotGeneral_plain {φ₁ φ₂ : FTy} (prec : Option ContractPrecision) (sched : HostSchedule)
    (X : FVec Ideal ⟨2, ![M, K]⟩ φ₁) (W : FVec Ideal ⟨2, ![K, N]⟩ φ₂) (i : (⟨2, ![M, N]⟩ : Shape).Idx) :
    FloatOps.dotGeneral (DotDims.plain M K N) prec sched X W i = ∑ k : Fin K, X (ix2 (i 0) k) * W (ix2 k (i 1)) := by
  rw [Ideal.dotGeneral_apply]
  exact sum_contr_plain X W i

/-- The `matmul` with the plain dimension numbers into the zero accumulator, at the extended reals, is the matrix
    product: entry `(r, c)` is `∑ k, X (r, k) · W (k, c)`. -/
theorem matmul_plain_zero {φ₁ φ₂ : FTy} (prec : Option ContractPrecision)
    (X : FVec Ideal ⟨2, ![M, K]⟩ φ₁) (W : FVec Ideal ⟨2, ![K, N]⟩ φ₂) (i : (⟨2, ![M, N]⟩ : Shape).Idx) :
    FloatOps.matmul (DotDims.plain M K N) prec X W (constant ⟨2, ![M, N]⟩ .f32 0x00000000#32) i
      = ∑ k : Fin K, X (ix2 (i 0) k) * W (ix2 k (i 1)) := by
  rw [Ideal.matmul_constant_zero_apply]
  exact sum_contr_plain X W i

end Cert.Proof.PlainDot

end
-- ==== Proof.LibRowBlock.lean ====
/-
  A run of consecutive rows of a matrix product is the product of that run of rows.
  For `X` of `Mt × K` and `W` of `K × N`, entry `(r, c)` of `X · W` is `∑ k, X (r, k) · W (k, c)`: it reads only
  row `r` of `X`. So a block `Xb` of `Mb` rows of `X` times `W`, read at the block's own row `y 0`, is the whole
  product read at the row of `X` that `y 0` is. On the extended reals a change of float format is the identity, so
  rounding both factors to a narrower format on the way into the product changes nothing.
-/
import proofs.«149042_j670014898796_1_alg».proof.Proof.LibPlainDot

noncomputable section

open scoped BigOperators

namespace Cert.Proof.RowBlock

open Idealize.ShloMosaic Idealize.ShloMosaic.ValueIdx Cert.Proof.PlainDot

variable {Mb Mt K N : Nat}

/-- The product of a row block (both factors rounded to bf16, accumulated from zero) at `y` is the whole product at
    `i`, when row `y 0` of the block is row `i 0` of `X`, the right factors agree on column `y 1 = i 1`. -/
theorem matmul_block_eq_dot
    (d : DotDims ⟨2, ![Mb, K]⟩ ⟨2, ![K, N]⟩ ⟨2, ![Mb, N]⟩) (hd : d = DotDims.plain Mb K N)
    (D : DotDims ⟨2, ![Mt, K]⟩ ⟨2, ![K, N]⟩ ⟨2, ![Mt, N]⟩) (hD : D = DotDims.plain Mt K N)
    (X : FVec Ideal ⟨2, ![Mt, K]⟩ .f32) (W : FVec Ideal ⟨2, ![K, N]⟩ .f32)
    (Xb : FVec Ideal ⟨2, ![Mb, K]⟩ .f32) (Wb : FVec Ideal ⟨2, ![K, N]⟩ .f32)
    (hb : FTy.bf16.bits < FTy.f32.bits)
    (y : (⟨2, ![Mb, N]⟩ : Shape).Idx) (i : (⟨2, ![Mt, N]⟩ : Shape).Idx)
    (hX : ∀ k : Fin K, Xb (ix2 (y 0) k) = X (ix2 (i 0) k))
    (hW : ∀ k : Fin K, Wb (ix2 k (y 1)) = W (ix2 k (i 1))) :
    FloatOps.matmul d none (truncf .bf16 Xb hb) (truncf .bf16 Wb hb) (constant ⟨2, ![Mb, N]⟩ .f32 0x00000000#32) y
      = FloatOps.dotGeneral D none .single X W i := by
  subst hd hD
  rw [matmul_plain_zero, dotGeneral_plain]
  refine Finset.sum_congr rfl fun k _ => ?_
  rw [truncf_apply, truncf_apply, hX k, hW k]

end Cert.Proof.RowBlock

end
-- ==== Proof.Region0.lean ====
/-
  REGION 0: the grid's 10 points each multiply one block of 5000 rows of the left array by the whole right array
  and write the block of 5000 rows of the output; the output array after the region is the whole matrix product.
  Point `t` stages rows `5000·t … 5000·t + 4999` of the left array (block index `(t, 0)`), the whole right array (block
  index `(0, 0)`), and writes back rows `5000·t …` of the output (block index `(t, 0)`). Entry `(r, c)` of a product reads
  only row `r` of the left factor, so what point `t` writes back is block `t` of the whole product; the 10 blocks
  cover the output's 50000 rows (row `r` lies in block `r / 5000`), so the array ends at the whole product.
  Stated at ANY contents `V` of the buffers at the region's entry.
-/
import proofs.«149042_j670014898796_1_alg».proof.Proof.Gen.KernelIdeal.Frame
import proofs.«149042_j670014898796_1_alg».proof.Proof.LibRowBlock
import Idealize.ShloMosaic.Lib.Pipeline.Value

set_option maxRecDepth 16384

noncomputable section

namespace Cert.KernelIdeal.Region0

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen

variable (V : (c : Dev nD) → (b : Ref sig .tc) → Buf (Elt Ideal) ((c : Thread nD τ).loc b))

/-- The whole product of the left array by the right array, as the region finds them. -/
def product (c : Dev nD) : S50000x128.Idx → EReal :=
  FloatOps.dotGeneral (F := Ideal) (φ₁ := .f32) (φ₂ := .f32) (DotDims.plain 50000 256 128) none .single
    (V c main_arg0 : S50000x256.Idx → EReal) (V c main_arg2 : S256x128.Idx → EReal)

theorem offsets_zero : (![0, 0] : Fin 2 → Nat) = fun _ => 0 := funext fun a => by fin_cases a <;> rfl

/-- The grid has 10 points. -/
theorem point_lt (t : Fin cfg0.N) : t.val < 10 := by
  exact lt_of_lt_of_eq t.isLt N_0

/-- The printed index maps, decided over the grid: the left and the output windows move down one block per point,
    the right window stays. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's stored value at `(p, q)` is the whole product at `(r, q)`, when row `p` of the left block is row `r` of the
    left array and the right block is the right array on column `q`. -/
theorem payload_eq (x0 : Vec Ideal S5000x256 .f32) (x1 : Vec Ideal S256x128 .f32)
    (X : S50000x256.Idx → EReal) (W : S256x128.Idx → EReal) (p : Fin 5000) (q : Fin 128) (r : Fin 50000)
    (hX : ∀ k : Fin 256, x0 (ix2 p k) = X (ix2 r k)) (hW : ∀ k : Fin 256, x1 (ix2 k q) = W (ix2 k q)) :
    k0_pay1 x0 x1 (ix2 p q)
      = FloatOps.dotGeneral (F := Ideal) (φ₁ := .f32) (φ₂ := .f32) (DotDims.plain 50000 256 128) none .single X W (ix2 r q) :=
  Cert.Proof.RowBlock.matmul_block_eq_dot dot_S5000x256_S256x128_S5000x128_1_0_0_1_n_n rfl (DotDims.plain 50000 256 128) rfl X W x0 x1 bitsLt_bf16_f32
    (ix2 p q) (ix2 r q) hX hW

/-- WHAT POINT `t` WRITES BACK is block `t` of the whole product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero offsets_zero]
  simp only [View.ld_unit_zero (S := S5000x256) offsets_zero, View.ld_unit_zero (S := S256x128) offsets_zero]
  obtain ⟨e0, e1, e2, e3, e4, e5⟩ := index_facts t
  have ht := point_lt t
  funext y
  obtain ⟨p, q, rfl⟩ : ∃ (p : Fin 5000) (q : Fin 128), y = ix2 p q := ⟨y 0, y 1, eq_ix2 y⟩
  have hp : p.val < 5000 := p.isLt
  show k0_pay1 (iblk0 V c 0 t) (iblk0 V c 1 t) (ix2 p q) = product V c (((cfg0.win 2).blk t).view.emb (ix2 p q))
  have hi : ((cfg0.win 2).blk t).view.emb (ix2 p q) = (ix2 (⟨t.val * 5000 + p.val, by omega⟩ : Fin 50000) q : S50000x128.Idx) := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  refine (payload_eq (iblk0 V c 0 t) (iblk0 V c 1 t) (V c main_arg0) (V c main_arg2) p q ⟨t.val * 5000 + p.val, by omega⟩ ?_ ?_).trans
    (congrArg (product V c) hi.symm)
  · intro k
    show V c main_arg0 (((cfg0.win 0).blk t).view.emb (ix2 p k)) = V c main_arg0 (ix2 (⟨t.val * 5000 + p.val, by omega⟩ : Fin 50000) k)
    refine congrArg (V c main_arg0) ?_
    funext a; apply Fin.ext
    match a with
    | ⟨0, _⟩ => show win0_0.index t (0 : Fin 2) * 5000 + 1 * p.val = t.val * 5000 + p.val; omega
    | ⟨1, _⟩ => show win0_0.index t (1 : Fin 2) * 256 + 1 * k.val = k.val; omega
  · intro k
    show V c main_arg2 (((cfg0.win 1).blk t).view.emb (ix2 k q)) = V c main_arg2 (ix2 k q)
    refine congrArg (V c main_arg2) ?_
    funext a; apply Fin.ext
    match a with
    | ⟨0, _⟩ => show win0_1.index t (0 : Fin 2) * 256 + 1 * k.val = k.val; omega
    | ⟨1, _⟩ => show win0_1.index t (1 : Fin 2) * 128 + 1 * q.val = q.val; omega

/-- An index of the output array is in point `t`'s block iff each coordinate is in the block's range on its axis. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row `r` of the output lies in the block of point `r / 5000`, a point of the grid. -/
theorem row_point (r : Nat) (h : r < 50000) : r / 5000 < cfg0.N := by
  show r / 5000 < grid0.N
  rw [N_0]; omega

/-- Every index of the output array is in some point's block: row `r` in block `r / 5000`. -/
theorem covered (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have ht : (i 0).val / 5000 < cfg0.N := row_point _ hi0
  refine ⟨⟨(i 0).val / 5000, ht⟩, flush0_2 _, ?_⟩
  rw [mem_block]
  obtain ⟨e0, e1, e2, e3, e4, e5⟩ := index_facts ⟨(i 0).val / 5000, ht⟩
  have e4' : win0_2.index ⟨(i 0).val / 5000, ht⟩ (0 : Fin 2) = (i 0).val / 5000 := e4
  intro a
  match a with
  | ⟨0, _⟩ => show win0_2.index _ (0 : Fin 2) * 5000 ≤ (i 0).val ∧ (i 0).val < win0_2.index _ (0 : Fin 2) * 5000 + 5000; omega
  | ⟨1, _⟩ => show win0_2.index _ (1 : Fin 2) * 128 ≤ (i 1).val ∧ (i 1).val < win0_2.index _ (1 : Fin 2) * 128 + 128; omega

/-- THE OUTPUT ARRAY after the region is the whole product of the left and right arrays as the region found them. -/
theorem final (c : Dev nD) : (dat0 V c).arrAt 2 cfg0.N = product V c :=
  (dat0 V c).arrAt_eq_of_cover 2 (product V c) (fun t _ => flushed_eq V c t) (covered)

end Cert.KernelIdeal.Region0

end
-- ==== Proof.Region1.lean ====
/-
  REGION 1: the grid's 10 points each multiply one block of 5000 rows of the left array by the whole right array
  and write the block of 5000 rows of the output; the output array after the region is the whole matrix product.
  Point `t` stages rows `5000·t … 5000·t + 4999` of the left array (block index `(t, 0)`), the whole right array (block
  index `(0, 0)`), and writes back rows `5000·t …` of the output (block index `(t, 0)`). Entry `(r, c)` of a product reads
  only row `r` of the left factor, so what point `t` writes back is block `t` of the whole product; the 10 blocks
  cover the output's 50000 rows (row `r` lies in block `r / 5000`), so the array ends at the whole product.
  Stated at ANY contents `V` of the buffers at the region's entry.
-/
import proofs.«149042_j670014898796_1_alg».proof.Proof.Gen.KernelIdeal.Frame
import proofs.«149042_j670014898796_1_alg».proof.Proof.LibRowBlock
import Idealize.ShloMosaic.Lib.Pipeline.Value

set_option maxRecDepth 16384

noncomputable section

namespace Cert.KernelIdeal.Region1

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen

variable (V : (c : Dev nD) → (b : Ref sig .tc) → Buf (Elt Ideal) ((c : Thread nD τ).loc b))

/-- The whole product of the left array by the right array, as the region finds them. -/
def product (c : Dev nD) : S50000x64.Idx → EReal :=
  FloatOps.dotGeneral (F := Ideal) (φ₁ := .f32) (φ₂ := .f32) (DotDims.plain 50000 128 64) none .single
    (V c main_v47 : S50000x128.Idx → EReal) (V c main_arg4 : S128x64.Idx → EReal)

theorem offsets_zero : (![0, 0] : Fin 2 → Nat) = fun _ => 0 := funext fun a => by fin_cases a <;> rfl

/-- The grid has 10 points. -/
theorem point_lt (t : Fin cfg1.N) : t.val < 10 := by
  exact lt_of_lt_of_eq t.isLt N_1

/-- The printed index maps, decided over the grid: the left and the output windows move down one block per point,
    the right window stays. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's stored value at `(p, q)` is the whole product at `(r, q)`, when row `p` of the left block is row `r` of the
    left array and the right block is the right array on column `q`. -/
theorem payload_eq (x0 : Vec Ideal S5000x128 .f32) (x1 : Vec Ideal S128x64 .f32)
    (X : S50000x128.Idx → EReal) (W : S128x64.Idx → EReal) (p : Fin 5000) (q : Fin 64) (r : Fin 50000)
    (hX : ∀ k : Fin 128, x0 (ix2 p k) = X (ix2 r k)) (hW : ∀ k : Fin 128, x1 (ix2 k q) = W (ix2 k q)) :
    k1_pay1 x0 x1 (ix2 p q)
      = FloatOps.dotGeneral (F := Ideal) (φ₁ := .f32) (φ₂ := .f32) (DotDims.plain 50000 128 64) none .single X W (ix2 r q) :=
  Cert.Proof.RowBlock.matmul_block_eq_dot dot_S5000x128_S128x64_S5000x64_1_0_0_1_n_n rfl (DotDims.plain 50000 128 64) rfl X W (shapeCast S5000x128 x0 shapeCasts_S5000x128_S5000x128) x1 bitsLt_bf16_f32
    (ix2 p q) (ix2 r q) (fun k => (congrFun (shapeCast_self x0 shapeCasts_S5000x128_S5000x128) _).trans (hX k)) hW

/-- WHAT POINT `t` WRITES BACK is block `t` of the whole product. -/
theorem flushed_eq (c : Dev nD) (t : Fin cfg1.N) :
    (dat1 V c).flushed 2 t = ((cfg1.win 2).blk t).view.read (Elt Ideal) (product V c) := by
  show (cfg1.win 2).cut (grid1.coords t) ((dat1 V c).after 2 t) = _
  rw [after1_2]
  unfold out1_2
  rw [View.canon_unit_zero offsets_zero]
  simp only [View.ld_unit_zero (S := S5000x128) offsets_zero, View.ld_unit_zero (S := S128x64) offsets_zero]
  obtain ⟨e0, e1, e2, e3, e4, e5⟩ := index_facts t
  have ht := point_lt t
  funext y
  obtain ⟨p, q, rfl⟩ : ∃ (p : Fin 5000) (q : Fin 64), y = ix2 p q := ⟨y 0, y 1, eq_ix2 y⟩
  have hp : p.val < 5000 := p.isLt
  show k1_pay1 (iblk1 V c 0 t) (iblk1 V c 1 t) (ix2 p q) = product V c (((cfg1.win 2).blk t).view.emb (ix2 p q))
  have hi : ((cfg1.win 2).blk t).view.emb (ix2 p q) = (ix2 (⟨t.val * 5000 + p.val, by omega⟩ : Fin 50000) q : S50000x64.Idx) := by
    funext a; apply Fin.ext
    match a with
    | ⟨0, _⟩ => show win1_2.index t (0 : Fin 2) * 5000 + 1 * p.val = t.val * 5000 + p.val; omega
    | ⟨1, _⟩ => show win1_2.index t (1 : Fin 2) * 64 + 1 * q.val = q.val; omega
  refine (payload_eq (iblk1 V c 0 t) (iblk1 V c 1 t) (V c main_v47) (V c main_arg4) p q ⟨t.val * 5000 + p.val, by omega⟩ ?_ ?_).trans
    (congrArg (product V c) hi.symm)
  · intro k
    show V c main_v47 (((cfg1.win 0).blk t).view.emb (ix2 p k)) = V c main_v47 (ix2 (⟨t.val * 5000 + p.val, by omega⟩ : Fin 50000) k)
    refine congrArg (V c main_v47) ?_
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  · intro k
    show V c main_arg4 (((cfg1.win 1).blk t).view.emb (ix2 k q)) = V c main_arg4 (ix2 k q)
    refine congrArg (V c main_arg4) ?_
    funext a; apply Fin.ext
    match a with
    | ⟨0, _⟩ => show win1_1.index t (0 : Fin 2) * 128 + 1 * k.val = k.val; omega
    | ⟨1, _⟩ => show win1_1.index t (1 : Fin 2) * 64 + 1 * q.val = q.val; omega

/-- An index of the output array is in point `t`'s block iff each coordinate is in the block's range on its axis. -/
theorem mem_block (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v48).slice (win1_2.rect t)).set ↔ _
  rw [View.set_slice_whole, Rect.mem_set_unit]
  exact Iff.rfl

/-- Row `r` of the output lies in the block of point `r / 5000`, a point of the grid. -/
theorem row_point (r : Nat) (h : r < 50000) : r / 5000 < cfg1.N := by
  show r / 5000 < grid1.N
  rw [N_1]; omega

/-- Every index of the output array is in some point's block: row `r` in block `r / 5000`. -/
theorem covered (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  have ht : (i 0).val / 5000 < cfg1.N := row_point _ hi0
  refine ⟨⟨(i 0).val / 5000, ht⟩, flush1_2 _, ?_⟩
  rw [mem_block]
  obtain ⟨e0, e1, e2, e3, e4, e5⟩ := index_facts ⟨(i 0).val / 5000, ht⟩
  have e4' : win1_2.index ⟨(i 0).val / 5000, ht⟩ (0 : Fin 2) = (i 0).val / 5000 := e4
  intro a
  match a with
  | ⟨0, _⟩ => show win1_2.index _ (0 : Fin 2) * 5000 ≤ (i 0).val ∧ (i 0).val < win1_2.index _ (0 : Fin 2) * 5000 + 5000; omega
  | ⟨1, _⟩ => show win1_2.index _ (1 : Fin 2) * 64 ≤ (i 1).val ∧ (i 1).val < win1_2.index _ (1 : Fin 2) * 64 + 64; omega

/-- THE OUTPUT ARRAY after the region is the whole product of the left and right arrays as the region found them. -/
theorem final (c : Dev nD) : (dat1 V c).arrAt 2 cfg1.N = product V c :=
  (dat1 V c).arrAt_eq_of_cover 2 (product V c) (fun t _ => flushed_eq V c t) (covered)

end Cert.KernelIdeal.Region1

end
-- ==== Proof.Stage0.lean ====
/-
  The first stretch of host operations, read at the buffers the rest of the program uses. From the launch memory it
  computes, from the edge list alone, the endpoint lists with self loops (`main_v5`, `main_v6`) and the edges' weights
  (`main_v29`: the product of the two endpoints' inverse-square-root degrees), and it writes no argument array. The
  contents at region 0's entry (`Gen.W3`) are the fold of its 40 operations over the launch memory; each buffer's
  contents are read off the fold one operation at a time.
-/
import proofs.«149042_j670014898796_1_alg».proof.Proof.Gen.KernelIdeal.Frame
import proofs.«149042_j670014898796_1_alg».proof.Proof.Layers

set_option maxRecDepth 16384

noncomputable section

namespace Cert.KernelIdeal.Stage0

open Idealize.ShloMosaic Idealize.ShloMosaic.TcCoe Idealize.ShloMosaic.StableHlo
open Idealize.SL Idealize.SL.Sem
open Cert.KernelIdeal Cert.KernelIdeal.Gen Cert.KernelIdeal.Layers

variable {F : FTy → Type} [FloatOps F]
variable (m : (ℓ : Loc nD τ sig) → Buf (Elt F) ℓ) (ρ : Dev nD → PrngReg) (c : Dev nD)

attribute [local irreducible] Host.gather Host.scatterAdd Host.rsqrt concatenate in
set_option maxHeartbeats 4000000 in
theorem src : W3 m ρ c (Proc.devRef .tc main_v5) = edgeSrc (F := F) (m ((c.tc : Thread nD τ).loc main_arg1)) := by
  dsimp only [W3, W2, W1, hostOps0, hostOps0_1, hostOps0_2]
  after_results_simp <;> rfl

attribute [local irreducible] Host.gather Host.scatterAdd Host.rsqrt concatenate in
set_option maxHeartbeats 4000000 in
theorem dst : W3 m ρ c (Proc.devRef .tc main_v6) = edgeDst (F := F) (m ((c.tc : Thread nD τ).loc main_arg1)) := by
  dsimp only [W3, W2, W1, hostOps0, hostOps0_1, hostOps0_2]
  after_results_simp <;> rfl

attribute [local irreducible] Host.gather Host.scatterAdd Host.rsqrt concatenate in
set_option maxHeartbeats 8000000 in
theorem norm : W3 m ρ c (Proc.devRef .tc main_v29)
    = edgeNorm (F := F) (edgeSrc (F := F) (m ((c.tc : Thread nD τ).loc main_arg1))) (edgeDst (F := F) (m ((c.tc : Thread nD τ).loc main_arg1))) := by
  dsimp only [W3, W2, W1, hostOps0, hostOps0_1, hostOps0_2]
  after_results_simp <;> rfl

attribute [local irreducible] Host.gather Host.scatterAdd Host.rsqrt concatenate in
set_option maxHeartbeats 4000000 in
theorem arg0 : W3 m ρ c (Proc.devRef .tc main_arg0) = m ((c.tc : Thread nD τ).loc main_arg0) := by
  dsimp only [W3, W2, W1, hostOps0, hostOps0_1, hostOps0_2]
  after_results_simp <;> rfl

attribute [local irreducible] Host.gather Host.scatterAdd Host.rsqrt concatenate in
set_option maxHeartbeats 4000000 in
theorem arg2 : W3 m ρ c (Proc.devRef .tc main_arg2) = m ((c.tc : Thread nD τ).loc main_arg2) := by
  dsimp only [W3, W2, W1, hostOps0, hostOps0_1, hostOps0_2]
  after_results_simp <;> rfl

attribute [local irreducible] Host.gather Host.scatterAdd Host.rsqrt concatenate in
set_option maxHeartbeats 4000000 in
theorem arg3 : W3 m ρ c (Proc.devRef .tc main_arg3) = m ((c.tc : Thread nD τ).loc main_arg3) := by
  dsimp only [W3, W2, W1, hostOps0, hostOps0_1, hostOps0_2]
  after_results_simp <;> rfl

attribute [local irreducible] Host.gather Host.scatterAdd Host.rsqrt concatenate in
set_option maxHeartbeats 4000000 in
theorem arg4 : W3 m ρ c (Proc.devRef .tc main_arg4) = m ((c.tc : Thread nD τ).loc main_arg4) := by
  dsimp only [W3, W2, W1, hostOps0, hostOps0_1, hostOps0_2]
  after_results_simp <;> rfl

attribute [local irreducible] Host.gather Host.scatterAdd Host.rsqrt concatenate in
set_option maxHeartbeats 4000000 in
theorem arg5 : W3 m ρ c (Proc.devRef .tc main_arg5) = m ((c.tc : Thread nD τ).loc main_arg5) := by
  dsimp only [W3, W2, W1, hostOps0, hostOps0_1, hostOps0_2]
  after_results_simp <;> rfl

end Cert.KernelIdeal.Stage0

end
-- ==== Proof.Stage1.lean ====
/-
  The second stretch of host operations, between the two regions, read at the buffers the rest of the program uses.
  From the contents at region 0's exit (`Gen.W4`) it computes the first layer's output `main_v47`: the rows of the
  transformed features gathered at the edges' sources, scaled by the edges' weights, added up at the destinations, the
  bias added, the maximum against 0. It writes none of the endpoint lists, the edge weights or the arguments.
-/
import proofs.«149042_j670014898796_1_alg».proof.Proof.Gen.KernelIdeal.Frame
import proofs.«149042_j670014898796_1_alg».proof.Proof.Layers

set_option maxRecDepth 16384

noncomputable section

namespace Cert.KernelIdeal.Stage1

open Idealize.ShloMosaic Idealize.ShloMosaic.TcCoe Idealize.ShloMosaic.StableHlo
open Idealize.SL Idealize.SL.Sem
open Cert.KernelIdeal Cert.KernelIdeal.Gen Cert.KernelIdeal.Layers

variable {F : FTy → Type} [FloatOps F]
variable (m : (ℓ : Loc nD τ sig) → Buf (Elt F) ℓ) (ρ : Dev nD → PrngReg) (c : Dev nD)

attribute [local irreducible] Host.gather Host.scatterAdd Host.rsqrt concatenate in
set_option maxHeartbeats 8000000 in
theorem hidden : W6 m ρ c (Proc.devRef .tc main_v47)
    = aggregate1 (F := F) (W4 m ρ c (Proc.devRef .tc main_v30)) (W4 m ρ c (Proc.devRef .tc main_v5)) (W4 m ρ c (Proc.devRef .tc main_v6))
        (W4 m ρ c (Proc.devRef .tc main_v29)) (W4 m ρ c (Proc.devRef .tc main_arg3)) := by
  dsimp only [W6, W5, hostOps1, hostOps1_1]
  after_results_simp <;> rfl

attribute [local irreducible] Host.gather Host.scatterAdd Host.rsqrt concatenate in
set_option maxHeartbeats 4000000 in
theorem src : W6 m ρ c (Proc.devRef .tc main_v5) = W4 m ρ c (Proc.devRef .tc main_v5) := by
  dsimp only [W6, W5, hostOps1, hostOps1_1]
  after_results_simp <;> rfl

attribute [local irreducible] Host.gather Host.scatterAdd Host.rsqrt concatenate in
set_option maxHeartbeats 4000000 in
theorem dst : W6 m ρ c (Proc.devRef .tc main_v6) = W4 m ρ c (Proc.devRef .tc main_v6) := by
  dsimp only [W6, W5, hostOps1, hostOps1_1]
  after_results_simp <;> rfl

attribute [local irreducible] Host.gather Host.scatterAdd Host.rsqrt concatenate in
set_option maxHeartbeats 4000000 in
theorem norm : W6 m ρ c (Proc.devRef .tc main_v29) = W4 m ρ c (Proc.devRef .tc main_v29) := by
  dsimp only [W6, W5, hostOps1, hostOps1_1]
  after_results_simp <;> rfl

attribute [local irreducible] Host.gather Host.scatterAdd Host.rsqrt concatenate in
set_option maxHeartbeats 4000000 in
theorem arg4 : W6 m ρ c (Proc.devRef .tc main_arg4) = W4 m ρ c (Proc.devRef .tc main_arg4) := by
  dsimp only [W6, W5, hostOps1, hostOps1_1]
  after_results_simp <;> rfl

attribute [local irreducible] Host.gather Host.scatterAdd Host.rsqrt concatenate in
set_option maxHeartbeats 4000000 in
theorem arg5 : W6 m ρ c (Proc.devRef .tc main_arg5) = W4 m ρ c (Proc.devRef .tc main_arg5) := by
  dsimp only [W6, W5, hostOps1, hostOps1_1]
  after_results_simp <;> rfl

end Cert.KernelIdeal.Stage1

end
-- ==== Proof.Stage2.lean ====
/-
  The last stretch of host operations, after region 1. From the contents at region 1's exit (`Gen.W7`) it computes
  the program's result `main_v64`: the rows of the second transform gathered at the edges' sources, scaled by the edges'
  weights, added up at the destinations, and the bias added.
-/
import proofs.«149042_j670014898796_1_alg».proof.Proof.Gen.KernelIdeal.Frame
import proofs.«149042_j670014898796_1_alg».proof.Proof.Layers

set_option maxRecDepth 16384

noncomputable section

namespace Cert.KernelIdeal.Stage2

open Idealize.ShloMosaic Idealize.ShloMosaic.TcCoe Idealize.ShloMosaic.StableHlo
open Idealize.SL Idealize.SL.Sem
open Cert.KernelIdeal Cert.KernelIdeal.Gen Cert.KernelIdeal.Layers

variable {F : FTy → Type} [FloatOps F]
variable (m : (ℓ : Loc nD τ sig) → Buf (Elt F) ℓ) (ρ : Dev nD → PrngReg) (c : Dev nD)

attribute [local irreducible] Host.gather Host.scatterAdd Host.rsqrt concatenate in
set_option maxHeartbeats 8000000 in
theorem result : W8 m ρ c (Proc.devRef .tc main_v64)
    = aggregate2 (F := F) (W7 m ρ c (Proc.devRef .tc main_v48)) (W7 m ρ c (Proc.devRef .tc main_v5)) (W7 m ρ c (Proc.devRef .tc main_v6))
        (W7 m ρ c (Proc.devRef .tc main_v29)) (W7 m ρ c (Proc.devRef .tc main_arg5)) := by
  dsimp only [W8, hostOps2]
  after_results_simp <;> rfl

end Cert.KernelIdeal.Stage2

end
-- ==== Proof.HostValue.lean ====
/-
  What the idealized kernel's result array holds at the end, as one function of the argument arrays.
  The buffers at each boundary of @main are a fold from the launch memory (the generated `Gen.W0 … Gen.W8`). Read at
  the buffers that matter:
  * the first stretch of host operations computes, from the edge list alone, the endpoint lists with self loops and
    the edges' weights, and writes no argument (Proof/Stage0.lean);
  * region 0 leaves the product of the features by the first weight matrix in its output array (`Region0.final`)
    and every other buffer as it was;
  * the second stretch gathers, scales, scatter-adds, adds the bias and clamps at 0: the first layer's output
    (Proof/Stage1.lean);
  * region 1 leaves the product of that by the second weight matrix (`Region1.final`);
  * the last stretch is the second layer's aggregation, the program's result (Proof/Stage2.lean).
  Composed: the result is `Layers.gcn` of the six argument arrays.
-/
import proofs.«149042_j670014898796_1_alg».proof.Proof.Gen.KernelIdeal.Frame
import proofs.«149042_j670014898796_1_alg».proof.Proof.Layers
import proofs.«149042_j670014898796_1_alg».proof.Proof.Region0
import proofs.«149042_j670014898796_1_alg».proof.Proof.Region1
import proofs.«149042_j670014898796_1_alg».proof.Proof.Stage0
import proofs.«149042_j670014898796_1_alg».proof.Proof.Stage1
import proofs.«149042_j670014898796_1_alg».proof.Proof.Stage2

set_option maxRecDepth 16384

noncomputable section

namespace Cert.KernelIdeal.HostValue

open Idealize.ShloMosaic Idealize.ShloMosaic.TcCoe Idealize.ShloMosaic.StableHlo
open Idealize.SL Idealize.SL.Sem
open Cert.KernelIdeal Cert.KernelIdeal.Gen Cert.KernelIdeal.Layers

variable (m : (ℓ : Loc nD τ sig) → Buf (Elt Ideal) ℓ) (ρ : Dev nD → PrngReg) (c : Dev nD)

/-! ## Region 0: the first transform; every other buffer kept -/

theorem exit0_product : W4 m ρ c (Proc.devRef .tc main_v30)
    = FloatOps.dotGeneral (F := Ideal) (φ₁ := .f32) (φ₂ := .f32) (DotDims.plain 50000 256 128) none .single
        (m ((c.tc : Thread nD τ).loc main_arg0)) (m ((c.tc : Thread nD τ).loc main_arg2)) :=
  ((W4_arr m ρ c 2).trans (Region0.final (V3 m ρ) c)).trans
    (congrArg₂ (FloatOps.dotGeneral (F := Ideal) (φ₁ := .f32) (φ₂ := .f32) (DotDims.plain 50000 256 128) none .single)
      (Stage0.arg0 m ρ c) (Stage0.arg2 m ρ c))

theorem exit0_src : W4 m ρ c (Proc.devRef .tc main_v5) = W3 m ρ c (Proc.devRef .tc main_v5) := W4_of_ne m ρ c main_v5 (by decide)
theorem exit0_dst : W4 m ρ c (Proc.devRef .tc main_v6) = W3 m ρ c (Proc.devRef .tc main_v6) := W4_of_ne m ρ c main_v6 (by decide)
theorem exit0_norm : W4 m ρ c (Proc.devRef .tc main_v29) = W3 m ρ c (Proc.devRef .tc main_v29) := W4_of_ne m ρ c main_v29 (by decide)
theorem exit0_arg3 : W4 m ρ c (Proc.devRef .tc main_arg3) = W3 m ρ c (Proc.devRef .tc main_arg3) := W4_of_ne m ρ c main_arg3 (by decide)
theorem exit0_arg4 : W4 m ρ c (Proc.devRef .tc main_arg4) = W3 m ρ c (Proc.devRef .tc main_arg4) := W4_of_ne m ρ c main_arg4 (by decide)
theorem exit0_arg5 : W4 m ρ c (Proc.devRef .tc main_arg5) = W3 m ρ c (Proc.devRef .tc main_arg5) := W4_of_ne m ρ c main_arg5 (by decide)

/-! ## Region 1: the second transform; every other buffer kept -/

theorem exit1_product : W7 m ρ c (Proc.devRef .tc main_v48)
    = FloatOps.dotGeneral (F := Ideal) (φ₁ := .f32) (φ₂ := .f32) (DotDims.plain 50000 128 64) none .single
        (W6 m ρ c (Proc.devRef .tc main_v47)) (W6 m ρ c (Proc.devRef .tc main_arg4)) :=
  (W7_arr m ρ c 2).trans (Region1.final (V6 m ρ) c)

theorem exit1_src : W7 m ρ c (Proc.devRef .tc main_v5) = W6 m ρ c (Proc.devRef .tc main_v5) := W7_of_ne m ρ c main_v5 (by decide)
theorem exit1_dst : W7 m ρ c (Proc.devRef .tc main_v6) = W6 m ρ c (Proc.devRef .tc main_v6) := W7_of_ne m ρ c main_v6 (by decide)
theorem exit1_norm : W7 m ρ c (Proc.devRef .tc main_v29) = W6 m ρ c (Proc.devRef .tc main_v29) := W7_of_ne m ρ c main_v29 (by decide)
theorem exit1_arg5 : W7 m ρ c (Proc.devRef .tc main_arg5) = W6 m ρ c (Proc.devRef .tc main_arg5) := W7_of_ne m ρ c main_arg5 (by decide)

/-! ## Composed -/

/-- The endpoint lists and edge weights reach the last stretch as the first stretch computed them. -/
theorem src_kept : W7 m ρ c (Proc.devRef .tc main_v5) = edgeSrc (F := Ideal) (m ((c.tc : Thread nD τ).loc main_arg1)) :=
  (exit1_src m ρ c).trans ((Stage1.src m ρ c).trans ((exit0_src m ρ c).trans (Stage0.src m ρ c)))
theorem dst_kept : W7 m ρ c (Proc.devRef .tc main_v6) = edgeDst (F := Ideal) (m ((c.tc : Thread nD τ).loc main_arg1)) :=
  (exit1_dst m ρ c).trans ((Stage1.dst m ρ c).trans ((exit0_dst m ρ c).trans (Stage0.dst m ρ c)))
theorem norm_kept : W7 m ρ c (Proc.devRef .tc main_v29)
    = edgeNorm (F := Ideal) (edgeSrc (F := Ideal) (m ((c.tc : Thread nD τ).loc main_arg1))) (edgeDst (F := Ideal) (m ((c.tc : Thread nD τ).loc main_arg1))) :=
  (exit1_norm m ρ c).trans ((Stage1.norm m ρ c).trans ((exit0_norm m ρ c).trans (Stage0.norm m ρ c)))
theorem bias2_kept : W7 m ρ c (Proc.devRef .tc main_arg5) = m ((c.tc : Thread nD τ).loc main_arg5) :=
  (exit1_arg5 m ρ c).trans ((Stage1.arg5 m ρ c).trans ((exit0_arg5 m ρ c).trans (Stage0.arg5 m ρ c)))
theorem weight2_kept : W6 m ρ c (Proc.devRef .tc main_arg4) = m ((c.tc : Thread nD τ).loc main_arg4) :=
  (Stage1.arg4 m ρ c).trans ((exit0_arg4 m ρ c).trans (Stage0.arg4 m ρ c))

/-- The first layer's output, as region 1 finds it. -/
theorem hidden_eq : W6 m ρ c (Proc.devRef .tc main_v47)
    = aggregate1 (F := Ideal)
        (FloatOps.dotGeneral (F := Ideal) (φ₁ := .f32) (φ₂ := .f32) (DotDims.plain 50000 256 128) none .single
          (m ((c.tc : Thread nD τ).loc main_arg0)) (m ((c.tc : Thread nD τ).loc main_arg2)))
        (edgeSrc (F := Ideal) (m ((c.tc : Thread nD τ).loc main_arg1))) (edgeDst (F := Ideal) (m ((c.tc : Thread nD τ).loc main_arg1)))
        (edgeNorm (F := Ideal) (edgeSrc (F := Ideal) (m ((c.tc : Thread nD τ).loc main_arg1))) (edgeDst (F := Ideal) (m ((c.tc : Thread nD τ).loc main_arg1))))
        (m ((c.tc : Thread nD τ).loc main_arg3)) := by
  rw [Stage1.hidden, exit0_product, exit0_src, exit0_dst, exit0_norm, exit0_arg3,
    Stage0.src, Stage0.dst, Stage0.norm, Stage0.arg3]

/-- The result array at the end of @main is the network of the six argument arrays as launched. -/
theorem result_eq : W8 m ρ c (Proc.devRef .tc main_v64)
    = gcn (F := Ideal) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  rw [Stage2.result, exit1_product, hidden_eq, weight2_kept, src_kept, dst_kept, norm_kept, bias2_kept]
  rfl

end Cert.KernelIdeal.HostValue

end
-- ==== Proof.RefValue.lean ====
/-
  The reference's result as the same function of the argument arrays. The reference is one straight line of host
  operations: the endpoint lists, degrees and edge weights (computed once per layer, from the same edge list, by the same
  operations), each layer's transform a `dot_general` of the whole arrays, each layer's aggregation the same gather,
  scaling, scatter-add and bias. Its run's composed term is, operation for operation, `Layers.gcn` of the arguments:
  the two programs' shape and dimension records are the same records under two names.
-/
import proofs.«149042_j670014898796_1_alg».proof.Proof.RefRun
import proofs.«149042_j670014898796_1_alg».proof.Proof.Layers
import Idealize.ShloMosaic.PureOps.Ideal

noncomputable section

namespace Cert.ReferenceIdeal.RefValue

open Idealize.ShloMosaic Idealize.ShloMosaic.TcCoe Idealize.SL.Sem
open Cert.ReferenceIdeal Cert.ReferenceIdeal.Gen

set_option maxRecDepth 16384 in
set_option maxHeartbeats 2000000 in
/-- The reference run's result term is the network of the six argument arrays. -/
theorem result_eq (m : (ℓ : Loc nD τ sig) → Buf (Elt Ideal) ℓ) (c : Dev nD) :
    Cert.ReferenceIdeal.ValueP.res_main_v90 (F := Ideal) m c
      = Cert.KernelIdeal.Layers.gcn (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v90 Cert.KernelIdeal.Layers.gcn Cert.KernelIdeal.Layers.aggregate2
    Cert.KernelIdeal.Layers.aggregate1 Cert.KernelIdeal.Layers.edgeNorm Cert.KernelIdeal.Layers.invSqrtDeg
    Cert.KernelIdeal.Layers.degree Cert.KernelIdeal.Layers.wrapIdx Cert.KernelIdeal.Layers.edgeSrc Cert.KernelIdeal.Layers.edgeDst
  rfl

end Cert.ReferenceIdeal.RefValue

end
-- ==== Proof.lean ====
/-
  A two-layer graph convolution over 50000 nodes and 800000 edges: the kernel program runs each layer's linear
  transform as a pallas_call that multiplies blocks of 5000 rows (both factors rounded to bf16, accumulated in f32 from
  zero), the reference runs it as one `dot_general` of the whole arrays; everything else — self loops, degrees, edge
  weights, gather, scaling, scatter-add, bias, the maximum against 0 between the layers — is the same host arithmetic
  in both programs. On the extended reals a change of float format is the identity and a block of rows of a product is
  the product of the block of rows, so each region leaves exactly the reference's `dot_general` in its output array
  (Proof/Region0.lean, Proof/Region1.lean over Proof/LibRowBlock.lean), and the two programs end at the same function
  `Layers.gcn` of the six argument arrays (Proof/HostValue.lean for the kernel, Proof/RefValue.lean for the reference).
  No law of arithmetic beyond that is used, so the precondition (every float input finite) is never opened.
  The ideal pass rewrote nothing, so `preserves` is `True`.
-/
import proofs.«149042_j670014898796_1_alg».proof.Defs
import proofs.«149042_j670014898796_1_alg».proof.Proof.Gen.Kernel
import proofs.«149042_j670014898796_1_alg».proof.Proof.Gen.Kernel.Skeleton
import proofs.«149042_j670014898796_1_alg».proof.Proof.Gen.Kernel.Launch
import proofs.«149042_j670014898796_1_alg».proof.Proof.Gen.Kernel.Points
import proofs.«149042_j670014898796_1_alg».proof.Proof.Gen.Kernel.Frame
import proofs.«149042_j670014898796_1_alg».proof.Proof.Gen.KernelIdeal
import proofs.«149042_j670014898796_1_alg».proof.Proof.Gen.KernelIdeal.Skeleton
import proofs.«149042_j670014898796_1_alg».proof.Proof.Gen.KernelIdeal.Launch
import proofs.«149042_j670014898796_1_alg».proof.Proof.Gen.KernelIdeal.Points
import proofs.«149042_j670014898796_1_alg».proof.Proof.Gen.KernelIdeal.Frame
import proofs.«149042_j670014898796_1_alg».proof.Proof.Gen.ReferenceIdeal
import proofs.«149042_j670014898796_1_alg».proof.Proof.Gen.Pre_finite_inputs
import proofs.«149042_j670014898796_1_alg».proof.Proof.KernelRun
import proofs.«149042_j670014898796_1_alg».proof.Proof.HostValue
import proofs.«149042_j670014898796_1_alg».proof.Proof.RefRun
import proofs.«149042_j670014898796_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with the network `Layers.gcn` of the arguments in their
    result arrays. -/
theorem algebraic : Cert.algebraic_KernelIdeal_ReferenceIdeal := by
  intro m ρ m' ρ' _ hagree
  refine ⟨fun c => Cert.KernelIdeal.Layers.gcn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.HostValue.result_eq m ρ c), (h c).2⟩)
      (Cert.KernelIdeal.RunValue.run_result m ρ)
  · refine (θ_run Cert.ReferenceIdeal.defs _ _).mono (fun _ h c => ⟨(h c).1.trans ?_, (h c).2⟩)
      (Cert.ReferenceIdeal.ValueP.run (F := Ideal) m' ρ')
    refine (Cert.ReferenceIdeal.RefValue.result_eq m' c).trans ?_
    obtain ⟨h0, h1, h2, h3, h4, h5⟩ := hagree c
    rw [h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
